-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S1x8192 : Shape := ⟨2, ![1, 8192]⟩
abbrev S64x1x8192 : Shape := ⟨3, ![64, 1, 8192]⟩
abbrev S128x8192 : Shape := ⟨2, ![128, 8192]⟩
abbrev S1x128 : Shape := ⟨2, ![1, 128]⟩
abbrev S1x1x8192 : Shape := ⟨3, ![1, 1, 8192]⟩
abbrev S128 : Shape := ⟨1, ![128]⟩
abbrev S128x1 : Shape := ⟨2, ![128, 1]⟩
abbrev S64x8192 : Shape := ⟨2, ![64, 8192]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S1x8192, .i32⟩
  | .hbm, ⟨3, _⟩ => ⟨S64x1x8192, .f32⟩
  | .hbm, ⟨4, _⟩ => ⟨S1x8192, .f32⟩
  | .hbm, ⟨5, _⟩ => ⟨S64x8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .i1⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192, .f32⟩
  | .local _ .vmem, ⟨0, _⟩ => ⟨S128x8192, .f32⟩
  | .local _ .vmem, ⟨1, _⟩ => ⟨S128x8192, .f32⟩
  | .local _ .vmem, ⟨2, _⟩ => ⟨S1x128, .i32⟩
  | .local _ .vmem, ⟨3, _⟩ => ⟨S1x128, .i32⟩
  | .local _ .vmem, ⟨4, _⟩ => ⟨S1x8192, .i32⟩
  | .local _ .vmem, ⟨5, _⟩ => ⟨S1x1x8192, .f32⟩
  | .local _ .vmem, ⟨6, _⟩ => ⟨S1x1x8192, .f32⟩
  | .local _ .vmem, ⟨7, _⟩ => ⟨S1x128, .f32⟩
  | .local _ .vmem, ⟨8, _⟩ => ⟨S1x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S1x8192 : S8192.ShapeCasts S1x8192
  inb_S1x128_S1x128_0_0 : ∀ a, (![0, 0] : Fin 2 → Nat) a + S1x128.size a ≤ S1x128.size a
  h_S1x128 : 0 < S1x128.numel
  shapeCasts_S1x128_S128 : S1x128.ShapeCasts S128
  inb_S1x8192_S1x8192_0_0 : ∀ a, (![0, 0] : Fin 2 → Nat) a + S1x8192.size a ≤ S1x8192.size a
  h_S1x8192 : 0 < S1x8192.numel
  shapeCasts_S1x8192_S8192 : S1x8192.ShapeCasts S8192
  shapeCasts_S128_S128x1 : S128.ShapeCasts S128x1
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  reduces_S128x8192_S8192 : S128x8192.Reduces [0] S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  reduces_S128x8192_S128 : S128x8192.Reduces [1] S128
  shapeCasts_S128_S1x128 : S128.ShapeCasts S1x128
  shapeCasts_S64x1x8192_S64x8192 : S64x1x8192.ShapeCasts S64x8192
  reducesTo_S64x8192_S8192_d0 : S64x8192.ReducesTo [0] S8192
  h_S_ : 0 < S_.numel
  bcast_S_S8192 : S_.BroadcastsInDim S8192 (![] : Fin 0 → Fin S8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x8192.size a
  hwx0_1 : ∀ i : grid0.Coords, EltTy.bits .i32 = 32 ∨ (Rect.block (s := S1x8192) S1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S64x1x8192.size a
  hwx0_3 : ∀ i : grid0.Coords, EltTy.bits .f32 = 32 ∨ (Rect.block (s := S64x1x8192) S1x1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x8192.size a
  hwx0_4 : ∀ i : grid0.Coords, EltTy.bits .f32 = 32 ∨ (Rect.block (s := S1x8192) S1x128.size (cc0_transform_4 i) (hinb0_4 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S1x8192, .i32⟩
  | .hbm, ⟨3, _⟩ => ⟨S8192x1, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .i1⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_call0_v0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_call1_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_v11 : Ref sig .tc := ⟨.hbm, 30, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d0 : S8192x8192.ReducesTo [0] S8192
  h_S_ : 0 < S_.numel
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)

variable [Facts₀]

class Facts : Prop extends Facts₀ where

variable [Facts]
-- ==== Proof.BitsBody.lean ====
/-
  The kernel body's triple and the pipeline's proof data for the one pallas_call of `Kernel`, at any float instance.

  The call has five windows over a grid of 64 row tiles t: the distance matrix's rows [128 t, 128 t + 128) (all 8192
  columns), the identifiers of those 128 rows, the identifiers of all 8192 columns (the last two windows read ONE array,
  the identifiers as a 1 x 8192 row), and two outputs: slot t of the 64 x 1 x 8192 partial column maxima and entries
  [128 t, 128 t + 128) of the 1 x 8192 row minima. The body loads the three input blocks whole and stores each output
  block whole, once; so after the body each output's staging buffer is one whole-block piece over the payload of the
  three loaded blocks.
-/
import proofs.«154842_j4466765988650_2_alg».proof.Proof.Gen.Kernel.Launch
import proofs.«154842_j4466765988650_2_alg».proof.Proof.Gen.Kernel.Skeleton
import proofs.«154842_j4466765988650_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not (the column
    identifiers are fetched once, at the first point, and their block never moves): the distance rows, -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the row identifiers, -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the column identifiers. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rCd : Rect S128x8192 := Rect.unit (s := S128x8192) ![0, 0] S128x8192.size inb_S128x8192_S128x8192_0_0
abbrev rRow : Rect S1x128 := Rect.unit (s := S1x128) ![0, 0] S1x128.size inb_S1x128_S1x128_0_0
abbrev rCol : Rect S1x8192 := Rect.unit (s := S1x8192) ![0, 0] S1x8192.size inb_S1x8192_S1x8192_0_0
abbrev rPos : Rect S1x1x8192 := Rect.unit (s := S1x1x8192) ![0, 0, 0] S1x1x8192.size inb_S1x1x8192_S1x1x8192_0_0_0

/-- The partial column maxima's buffer after the body: one whole-block store of the masked column maximum. -/
def outPos (x0 : Vec F S128x8192 .f32) (x1 : Vec F S1x128 .i32) (x2 : Vec F S1x8192 .i32) : Vec F S1x1x8192 .f32 :=
  View.canon [⟨rPos, k0_pay2 (View.ld x1 rRow) (View.ld x2 rCol) (View.ld x0 rCd)⟩]

/-- The row minima's buffer after the body: one whole-block store of the masked row minimum. -/
def outNeg (x0 : Vec F S128x8192 .f32) (x1 : Vec F S1x128 .i32) (x2 : Vec F S1x8192 .i32) : Vec F S1x128 .f32 :=
  View.canon [⟨rRow, k0_pay3 (View.ld x1 rRow) (View.ld x2 rCol) (View.ld x0 rCd)⟩]

theorem coverPos (p0 : Vec F S1x1x8192 .f32) (y : S1x1x8192.Idx) :
    ∃ pc ∈ ([⟨rPos, p0⟩] : List (View.Piece (Elt F) S1x1x8192 .f32)), y ∈ pc.1.set :=
  View.cover_of_tiled [⟨rPos, p0⟩] S1x1x8192.size (by rfl) y

theorem coverNeg (p0 : Vec F S1x128 .f32) (y : S1x128.Idx) :
    ∃ pc ∈ ([⟨rRow, p0⟩] : List (View.Piece (Elt F) S1x128 .f32)), y ∈ pc.1.set :=
  View.cover_of_tiled [⟨rRow, p0⟩] S1x128.size (by rfl) y

/-! ## The body's triple -/

set_option maxHeartbeats 1000000 in
/-- On whole staging memrefs — the inputs' at read contents, the outputs' at anything — the body runs to the
    continuation with the inputs' as they were and each output's at its one store's payload of the inputs. -/
theorem sound_kernel (c : Dev nD) (E : Set ℕ) (i : grid0.Coords)
    (arg1 : Memref sig .tc .vmem S128x8192 .f32) (harg1 : arg1.IsWhole) (arg2 : Memref sig .tc .vmem S1x128 .i32) (harg2 : arg2.IsWhole)
    (arg3 : Memref sig .tc .vmem S1x8192 .i32) (harg3 : arg3.IsWhole) (arg4 : Memref sig .tc .vmem S1x1x8192 .f32) (harg4 : arg4.IsWhole)
    (arg5 : Memref sig .tc .vmem S1x128 .f32) (harg5 : arg5.IsWhole)
    (x0 : Vec F S128x8192 .f32) (x1 : Vec F S1x128 .i32) (x2 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outPos x0 x1 x2) ∗ owns (c : Thread nD τ) arg5 fullShare (outNeg x0 x1 x2)) -∗ K ⟨⟩))
      ⊢ wp frame (wpE (defs₀ (F := F)) Variants.none c none) E (cc0__batchhard_kernel i arg1 harg1 arg2 harg2 arg3 harg3 arg4 harg4 arg5 harg5) K := by
  simp only [cc0__batchhard_kernel_eq_skeleton]; unfold cc0__batchhard_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverPos _)
  iexists _; isplitr
  swap; · iexact H4
  ipureintro
  exact View.read_writes_eq_canon _ _ _ (coverNeg _)

/-! ## The pipeline's proof data -/

/-- The proof data on core `c`: the arrays as the region finds them; after the body at point `t` each input's buffer
    at its block and each output's at its store of the three input blocks; the invariant is the scoped rest and the
    generator register, untouched; nothing owed. The identifier array is read through two windows: the row window
    holds it at the left half of the full share and the column window at the right half. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outPos (iblk V c 0 t) (iblk V c 1 t) (iblk V c 2 t)
    | ⟨4, _⟩ => outNeg (iblk V c 0 t) (iblk V c 1 t) (iblk V c 2 t)
  Φ _ := Pipeline.ΦA spec0 c
  q w := match w with
    | ⟨1, _⟩ => fullShare.left
    | ⟨2, _⟩ => fullShare.right
    | _ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) :
    (dat0 V c).after 3 t = outPos (iblk V c 0 t) (iblk V c 1 t) (iblk V c 2 t) := by dsimp only [dat0]
theorem after_4 (c : Dev nD) (t : Fin cfg0.N) :
    (dat0 V c).after 4 t = outNeg (iblk V c 0 t) (iblk V c 1 t) (iblk V c 2 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Body

end
-- ==== Proof.BitsShares.lean ====
/-
  Entry and exit of the one pallas_call of `Kernel` when two of its windows read ONE array.

  The row-identifier window and the column-identifier window both read the 1 x 8192 identifier row. At the region's entry
  the core holds each distinct buffer whole at the full share; the pipeline wants one points-to per WINDOW at the window's
  share. So the identifier row's full share is cut in its left and right halves, one per window, the other three arrays
  pass at the full share; at the exit the two halves — both still at the entry contents, inputs are never written — are
  put back together.
-/
import proofs.«154842_j4466765988650_2_alg».proof.Proof.BitsBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the five windows' arrays are four. -/
theorem arrBufs_eq (c : Dev nD) (Vc : (b : Ref sig .tc) → Buf (Elt F) ((c : Thread nD τ).loc b)) :
    (Pipeline.arrBufs spec0 c Vc : sProp 𝕄)
      = iprop((((c : Thread nD τ).loc main_arg0) ↦{fullShare} Vc main_arg0) ∗ (((c : Thread nD τ).loc main_v0) ↦{fullShare} Vc main_v0)
          ∗ (((c : Thread nD τ).loc main_v1_0) ↦{fullShare} Vc main_v1_0) ∗ (((c : Thread nD τ).loc main_v1_1) ↦{fullShare} Vc main_v1_1)) := by
  unfold Pipeline.arrBufs
  exact bigSep_eq_bigSepL_of_eq [main_arg0, main_v0, main_v1_0, main_v1_1] (by decide) (by decide) _

/-- The pipeline's arrays, window by window, each at its window's share. -/
theorem arrays_eq5 (c : Dev nD) (A : (w : Fin cfg0.W) → Buf (Elt F) ((cfg0.win w).arr.view.loc (c : Thread nD τ))) :
    ((dat0 V c).arrays A : sProp 𝕄)
      = iprop((((c : Thread nD τ).loc main_arg0) ↦{fullShare} A 0) ∗ (((c : Thread nD τ).loc main_v0) ↦{fullShare.left} A 1)
          ∗ (((c : Thread nD τ).loc main_v0) ↦{fullShare.right} A 2)
          ∗ (((c : Thread nD τ).loc main_v1_0) ↦{fullShare} A 3) ∗ (((c : Thread nD τ).loc main_v1_1) ↦{fullShare} A 4)) := by
  unfold Dat.arrays
  rw [bigSep_W0]
  rw [(arr_whole0 0).set_eq_univ, (arr_whole0 1).set_eq_univ, (arr_whole0 3).set_eq_univ, (arr_whole0 4).set_eq_univ]
  rfl

/-- ENTRY: the core's unscoped buffers at `Vc` are the pipeline's arrays at contents read off `Vc`, the identifier row's
    share cut in two, and the unscoped rest. -/
theorem entry_split (c : Dev nD) (Vc : (b : Ref sig .tc) → Buf (Elt F) ((c : Thread nD τ).loc b))
    (A : (w : Fin cfg0.W) → Buf (Elt F) ((cfg0.win w).arr.view.loc (c : Thread nD τ))) (hA : ∀ w, A w = Vc (Pipeline.arrRef spec0 w)) :
    (unscopedBufs c Vc : sProp 𝕄) ⊢ iprop((dat0 V c).arrays A ∗ Pipeline.unscopedRest spec0 c Vc) := by
  rw [Pipeline.unscopedBufs_split₀ cfgs 0 winFacts₀0.arr_unscoped c Vc]
  refine sep_mono ?_ .rfl
  rw [show (Pipeline.arrBufs (cfgs 0).spec c Vc : sProp 𝕄) = Pipeline.arrBufs spec0 c Vc from rfl, arrBufs_eq, arrays_eq5,
    hA 0, hA 1, hA 2, hA 3, hA 4]
  iintro ⟨H0, Hv, H3, H4⟩
  ihave Hv' := (pointsTo_share (PosShare.mem_left_op_right fullShare)).1 $$ Hv
  icases Hv' with ⟨Hl, Hr⟩
  isplitl [H0]; · iexact H0
  isplitl [Hl]; · iexact Hl
  isplitl [Hr]; · iexact Hr
  isplitl [H3]; · iexact H3
  iexact H4

/-- EXIT: the pipeline's arrays at contents `A` — the two identifier windows' at the same — and the unscoped rest at `Vc`
    are the core's unscoped buffers at any `Vc'` that has the arrays at `A` and agrees with `Vc` elsewhere. -/
theorem exit_join (c : Dev nD) (Vc Vc' : (b : Ref sig .tc) → Buf (Elt F) ((c : Thread nD τ).loc b))
    (A : (w : Fin cfg0.W) → Buf (Elt F) ((cfg0.win w).arr.view.loc (c : Thread nD τ))) (hA : ∀ w, A w = Vc' (Pipeline.arrRef spec0 w))
    (hrest : ∀ b, b ∉ Finset.univ.image (Pipeline.arrRef spec0) → Vc' b = Vc b) :
    iprop((dat0 V c).arrays A ∗ Pipeline.unscopedRest spec0 c Vc) ⊢ (unscopedBufs c Vc' : sProp 𝕄) := by
  rw [Pipeline.unscopedBufs_split₀ cfgs 0 winFacts₀0.arr_unscoped c Vc']
  refine sep_mono ?_ (Entails.of_eq ?_)
  · rw [show (Pipeline.arrBufs (cfgs 0).spec c Vc' : sProp 𝕄) = Pipeline.arrBufs spec0 c Vc' from rfl, arrBufs_eq, arrays_eq5,
      hA 0, hA 1, hA 2, hA 3, hA 4]
    iintro ⟨H0, Hl, Hr, H3, H4⟩
    isplitl [H0]; · iexact H0
    isplitl [Hl Hr]
    · iapply (pointsTo_share (PosShare.mem_left_op_right fullShare)).2
      isplitl [Hl]; · iexact Hl
      iexact Hr
    isplitl [H3]; · iexact H3
    iexact H4
  · unfold Pipeline.unscopedRest
    exact (bigSep_congr fun b hb => by rw [hrest b (Finset.mem_sdiff.mp hb).2]).symm

end Cert.Kernel.Body

end
-- ==== Proof.BitsRun.lean ====
/-
  The run of `Kernel`'s @main, at any float instance: one host reshape (the identifiers as a 1 x 8192 row), the
  pallas_call, five host operations (the partial column maxima reshaped to 64 x 8192 and folded by a maximum over the 64
  tiles; the row minima reshaped to a vector; their difference) and the fourteen operations of the softplus. Every weakly
  fair execution terminates, faults nowhere, leaves the two arguments as launched, and ends with the result buffer at the
  host operations' value of what the pallas_call left in its two output arrays.
-/
import proofs.«154842_j4466765988650_2_alg».proof.Proof.BitsShares

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch, -/
abbrev W0 : Dev nD → Valuation τ sig (Elt F) := fun c b => (s₀ m ρ).mem ((c : Dev nD), b)
/-- after the reshape of the identifiers (the region's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the region's exit: the two output arrays at what the write-backs leave, every other buffer as entered, -/
def W2 (c : Dev nD) : Valuation τ sig (Elt F) :=
  Function.update (Function.update (W1 m ρ c) (Proc.devRef .tc main_v1_0) ((dat0 (V1 m ρ) c).arrAt 3 cfg0.N))
    (Proc.devRef .tc main_v1_1) ((dat0 (V1 m ρ) c).arrAt 4 cfg0.N)
abbrev V2 : (c : Dev nD) → (b : Ref sig .tc) → Buf (Elt F) ((c : Thread nD τ).loc b) := fun c b => W2 m ρ c b
/-- after the fold over the tiles and the difference, -/
abbrev W3 : Dev nD → Valuation τ sig (Elt F) := fun c => StableHlo.after hostOps1 (W2 m ρ c)
/-- and after the softplus. -/
abbrev W4 : Dev nD → Valuation τ sig (Elt F) := fun c => StableHlo.after hostOps1_1 (W3 m ρ c)

theorem W2_pos (c : Dev nD) : W2 m ρ c (Proc.devRef .tc main_v1_0) = (dat0 (V1 m ρ) c).arrAt 3 cfg0.N := by
  unfold W2
  rw [Function.update_of_ne (StableHlo.devRef_ne_of_ne (by decide)), Function.update_self]
theorem W2_neg (c : Dev nD) : W2 m ρ c (Proc.devRef .tc main_v1_1) = (dat0 (V1 m ρ) c).arrAt 4 cfg0.N := by
  unfold W2
  rw [Function.update_self]
theorem W2_of_ne (c : Dev nD) (b : Ref sig .tc) (h3 : b ≠ main_v1_0) (h4 : b ≠ main_v1_1) :
    W2 m ρ c (Proc.devRef .tc b) = W1 m ρ c (Proc.devRef .tc b) := by
  unfold W2
  rw [Function.update_of_ne (StableHlo.devRef_ne_of_ne h4), Function.update_of_ne (StableHlo.devRef_ne_of_ne h3)]

/-- At the exit each window's array holds what the pipeline leaves: an input's its entry contents, an output's its
    write-backs. -/
theorem hF (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans (W2_of_ne m ρ c main_arg0 (by decide) (by decide)).symm
  | ⟨1, _⟩ => ((dat0 (V1 m ρ) c).arrAt_in 1 rfl _).trans (W2_of_ne m ρ c main_v0 (by decide) (by decide)).symm
  | ⟨2, _⟩ => ((dat0 (V1 m ρ) c).arrAt_in 2 rfl _).trans (W2_of_ne m ρ c main_v0 (by decide) (by decide)).symm
  | ⟨3, _⟩ => (W2_pos m ρ c).symm
  | ⟨4, _⟩ => (W2_neg m ρ c).symm
theorem hrest (c : Dev nD) : ∀ b, b ∉ Finset.univ.image (Pipeline.arrRef spec0) → V2 m ρ c b = V1 m ρ c b :=
  fun b hb => W2_of_ne m ρ c b (fun e => hb (Finset.mem_image.mpr ⟨3, Finset.mem_univ _, e.symm⟩))
    (fun e => hb (Finset.mem_image.mpr ⟨4, Finset.mem_univ _, e.symm⟩))

/-! ### The arguments end as launched: no host operation and no write-back touches them -/

theorem notW0 (b : Ref sig .tc) (h : b ≠ main_v0) (c : Dev nD) (X : Valuation τ sig (Elt F)) :
    StableHlo.after (hostOps0 (F := F)) X (Proc.devRef .tc b) = X (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := notW0 main_arg0 (by decide) c _
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := notW0 main_arg1 (by decide) c _
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The pallas_call over the thread state: entered from every unscoped buffer at `W1`, left at `W2`. Its arrays are
    split out of the unscoped buffers (the identifier row's share cut between its two windows) and put back at the exit;
    the generator register goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c (V1 m ρ c) ((dat0 (V1 m ρ) c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V1 m ρ) c (V1 m ρ c) (V2 m ρ c) ((dat0 (V1 m ρ) c).arrAt · cfg0.N) (hF m ρ c) (hrest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    the result buffer at the last boundary's contents and both arguments as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c)⟩)

/-- info: 'Cert.Kernel.Body.run' depends on axioms: [propext, Classical.choice, Quot.sound] -/
#guard_msgs in #print axioms run

end Cert.Kernel.Body

end
-- ==== Proof.IdealBody.lean ====
/-
  The kernel body's triple and the pipeline's proof data for the one pallas_call of `KernelIdeal`, at any float instance.

  The call has five windows over a grid of 64 row tiles t: the distance matrix's rows [128 t, 128 t + 128) (all 8192
  columns), the identifiers of those 128 rows, the identifiers of all 8192 columns (the last two windows read ONE array,
  the identifiers as a 1 x 8192 row), and two outputs: slot t of the 64 x 1 x 8192 partial column maxima and entries
  [128 t, 128 t + 128) of the 1 x 8192 row minima. The body loads the three input blocks whole and stores each output
  block whole, once; so after the body each output's staging buffer is one whole-block piece over the payload of the
  three loaded blocks.
-/
import proofs.«154842_j4466765988650_2_alg».proof.Proof.Gen.KernelIdeal.Launch
import proofs.«154842_j4466765988650_2_alg».proof.Proof.Gen.KernelIdeal.Skeleton
import proofs.«154842_j4466765988650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not (the column
    identifiers are fetched once, at the first point, and their block never moves): the distance rows, -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the row identifiers, -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the column identifiers. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rCd : Rect S128x8192 := Rect.unit (s := S128x8192) ![0, 0] S128x8192.size inb_S128x8192_S128x8192_0_0
abbrev rRow : Rect S1x128 := Rect.unit (s := S1x128) ![0, 0] S1x128.size inb_S1x128_S1x128_0_0
abbrev rCol : Rect S1x8192 := Rect.unit (s := S1x8192) ![0, 0] S1x8192.size inb_S1x8192_S1x8192_0_0
abbrev rPos : Rect S1x1x8192 := Rect.unit (s := S1x1x8192) ![0, 0, 0] S1x1x8192.size inb_S1x1x8192_S1x1x8192_0_0_0

/-- The partial column maxima's buffer after the body: one whole-block store of the masked column maximum. -/
def outPos (x0 : Vec F S128x8192 .f32) (x1 : Vec F S1x128 .i32) (x2 : Vec F S1x8192 .i32) : Vec F S1x1x8192 .f32 :=
  View.canon [⟨rPos, k0_pay2 (View.ld x1 rRow) (View.ld x2 rCol) (View.ld x0 rCd)⟩]

/-- The row minima's buffer after the body: one whole-block store of the masked row minimum. -/
def outNeg (x0 : Vec F S128x8192 .f32) (x1 : Vec F S1x128 .i32) (x2 : Vec F S1x8192 .i32) : Vec F S1x128 .f32 :=
  View.canon [⟨rRow, k0_pay3 (View.ld x1 rRow) (View.ld x2 rCol) (View.ld x0 rCd)⟩]

theorem coverPos (p0 : Vec F S1x1x8192 .f32) (y : S1x1x8192.Idx) :
    ∃ pc ∈ ([⟨rPos, p0⟩] : List (View.Piece (Elt F) S1x1x8192 .f32)), y ∈ pc.1.set :=
  View.cover_of_tiled [⟨rPos, p0⟩] S1x1x8192.size (by rfl) y

theorem coverNeg (p0 : Vec F S1x128 .f32) (y : S1x128.Idx) :
    ∃ pc ∈ ([⟨rRow, p0⟩] : List (View.Piece (Elt F) S1x128 .f32)), y ∈ pc.1.set :=
  View.cover_of_tiled [⟨rRow, p0⟩] S1x128.size (by rfl) y

/-! ## The body's triple -/

set_option maxHeartbeats 1000000 in
/-- On whole staging memrefs — the inputs' at read contents, the outputs' at anything — the body runs to the
    continuation with the inputs' as they were and each output's at its one store's payload of the inputs. -/
theorem sound_kernel (c : Dev nD) (E : Set ℕ) (i : grid0.Coords)
    (arg1 : Memref sig .tc .vmem S128x8192 .f32) (harg1 : arg1.IsWhole) (arg2 : Memref sig .tc .vmem S1x128 .i32) (harg2 : arg2.IsWhole)
    (arg3 : Memref sig .tc .vmem S1x8192 .i32) (harg3 : arg3.IsWhole) (arg4 : Memref sig .tc .vmem S1x1x8192 .f32) (harg4 : arg4.IsWhole)
    (arg5 : Memref sig .tc .vmem S1x128 .f32) (harg5 : arg5.IsWhole)
    (x0 : Vec F S128x8192 .f32) (x1 : Vec F S1x128 .i32) (x2 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outPos x0 x1 x2) ∗ owns (c : Thread nD τ) arg5 fullShare (outNeg x0 x1 x2)) -∗ K ⟨⟩))
      ⊢ wp frame (wpE (defs₀ (F := F)) Variants.none c none) E (cc0__batchhard_kernel i arg1 harg1 arg2 harg2 arg3 harg3 arg4 harg4 arg5 harg5) K := by
  simp only [cc0__batchhard_kernel_eq_skeleton]; unfold cc0__batchhard_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverPos _)
  iexists _; isplitr
  swap; · iexact H4
  ipureintro
  exact View.read_writes_eq_canon _ _ _ (coverNeg _)

/-! ## The pipeline's proof data -/

/-- The proof data on core `c`: the arrays as the region finds them; after the body at point `t` each input's buffer
    at its block and each output's at its store of the three input blocks; the invariant is the scoped rest and the
    generator register, untouched; nothing owed. The identifier array is read through two windows: the row window
    holds it at the left half of the full share and the column window at the right half. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outPos (iblk V c 0 t) (iblk V c 1 t) (iblk V c 2 t)
    | ⟨4, _⟩ => outNeg (iblk V c 0 t) (iblk V c 1 t) (iblk V c 2 t)
  Φ _ := Pipeline.ΦA spec0 c
  q w := match w with
    | ⟨1, _⟩ => fullShare.left
    | ⟨2, _⟩ => fullShare.right
    | _ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) :
    (dat0 V c).after 3 t = outPos (iblk V c 0 t) (iblk V c 1 t) (iblk V c 2 t) := by dsimp only [dat0]
theorem after_4 (c : Dev nD) (t : Fin cfg0.N) :
    (dat0 V c).after 4 t = outNeg (iblk V c 0 t) (iblk V c 1 t) (iblk V c 2 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Body

end
-- ==== Proof.IdealShares.lean ====
/-
  Entry and exit of the one pallas_call of `KernelIdeal` when two of its windows read ONE array.

  The row-identifier window and the column-identifier window both read the 1 x 8192 identifier row. At the region's entry
  the core holds each distinct buffer whole at the full share; the pipeline wants one points-to per WINDOW at the window's
  share. So the identifier row's full share is cut in its left and right halves, one per window, the other three arrays
  pass at the full share; at the exit the two halves — both still at the entry contents, inputs are never written — are
  put back together.
-/
import proofs.«154842_j4466765988650_2_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the five windows' arrays are four. -/
theorem arrBufs_eq (c : Dev nD) (Vc : (b : Ref sig .tc) → Buf (Elt F) ((c : Thread nD τ).loc b)) :
    (Pipeline.arrBufs spec0 c Vc : sProp 𝕄)
      = iprop((((c : Thread nD τ).loc main_arg0) ↦{fullShare} Vc main_arg0) ∗ (((c : Thread nD τ).loc main_v0) ↦{fullShare} Vc main_v0)
          ∗ (((c : Thread nD τ).loc main_v1_0) ↦{fullShare} Vc main_v1_0) ∗ (((c : Thread nD τ).loc main_v1_1) ↦{fullShare} Vc main_v1_1)) := by
  unfold Pipeline.arrBufs
  exact bigSep_eq_bigSepL_of_eq [main_arg0, main_v0, main_v1_0, main_v1_1] (by decide) (by decide) _

/-- The pipeline's arrays, window by window, each at its window's share. -/
theorem arrays_eq5 (c : Dev nD) (A : (w : Fin cfg0.W) → Buf (Elt F) ((cfg0.win w).arr.view.loc (c : Thread nD τ))) :
    ((dat0 V c).arrays A : sProp 𝕄)
      = iprop((((c : Thread nD τ).loc main_arg0) ↦{fullShare} A 0) ∗ (((c : Thread nD τ).loc main_v0) ↦{fullShare.left} A 1)
          ∗ (((c : Thread nD τ).loc main_v0) ↦{fullShare.right} A 2)
          ∗ (((c : Thread nD τ).loc main_v1_0) ↦{fullShare} A 3) ∗ (((c : Thread nD τ).loc main_v1_1) ↦{fullShare} A 4)) := by
  unfold Dat.arrays
  rw [bigSep_W0]
  rw [(arr_whole0 0).set_eq_univ, (arr_whole0 1).set_eq_univ, (arr_whole0 3).set_eq_univ, (arr_whole0 4).set_eq_univ]
  rfl

/-- ENTRY: the core's unscoped buffers at `Vc` are the pipeline's arrays at contents read off `Vc`, the identifier row's
    share cut in two, and the unscoped rest. -/
theorem entry_split (c : Dev nD) (Vc : (b : Ref sig .tc) → Buf (Elt F) ((c : Thread nD τ).loc b))
    (A : (w : Fin cfg0.W) → Buf (Elt F) ((cfg0.win w).arr.view.loc (c : Thread nD τ))) (hA : ∀ w, A w = Vc (Pipeline.arrRef spec0 w)) :
    (unscopedBufs c Vc : sProp 𝕄) ⊢ iprop((dat0 V c).arrays A ∗ Pipeline.unscopedRest spec0 c Vc) := by
  rw [Pipeline.unscopedBufs_split₀ cfgs 0 winFacts₀0.arr_unscoped c Vc]
  refine sep_mono ?_ .rfl
  rw [show (Pipeline.arrBufs (cfgs 0).spec c Vc : sProp 𝕄) = Pipeline.arrBufs spec0 c Vc from rfl, arrBufs_eq, arrays_eq5,
    hA 0, hA 1, hA 2, hA 3, hA 4]
  iintro ⟨H0, Hv, H3, H4⟩
  ihave Hv' := (pointsTo_share (PosShare.mem_left_op_right fullShare)).1 $$ Hv
  icases Hv' with ⟨Hl, Hr⟩
  isplitl [H0]; · iexact H0
  isplitl [Hl]; · iexact Hl
  isplitl [Hr]; · iexact Hr
  isplitl [H3]; · iexact H3
  iexact H4

/-- EXIT: the pipeline's arrays at contents `A` — the two identifier windows' at the same — and the unscoped rest at `Vc`
    are the core's unscoped buffers at any `Vc'` that has the arrays at `A` and agrees with `Vc` elsewhere. -/
theorem exit_join (c : Dev nD) (Vc Vc' : (b : Ref sig .tc) → Buf (Elt F) ((c : Thread nD τ).loc b))
    (A : (w : Fin cfg0.W) → Buf (Elt F) ((cfg0.win w).arr.view.loc (c : Thread nD τ))) (hA : ∀ w, A w = Vc' (Pipeline.arrRef spec0 w))
    (hrest : ∀ b, b ∉ Finset.univ.image (Pipeline.arrRef spec0) → Vc' b = Vc b) :
    iprop((dat0 V c).arrays A ∗ Pipeline.unscopedRest spec0 c Vc) ⊢ (unscopedBufs c Vc' : sProp 𝕄) := by
  rw [Pipeline.unscopedBufs_split₀ cfgs 0 winFacts₀0.arr_unscoped c Vc']
  refine sep_mono ?_ (Entails.of_eq ?_)
  · rw [show (Pipeline.arrBufs (cfgs 0).spec c Vc' : sProp 𝕄) = Pipeline.arrBufs spec0 c Vc' from rfl, arrBufs_eq, arrays_eq5,
      hA 0, hA 1, hA 2, hA 3, hA 4]
    iintro ⟨H0, Hl, Hr, H3, H4⟩
    isplitl [H0]; · iexact H0
    isplitl [Hl Hr]
    · iapply (pointsTo_share (PosShare.mem_left_op_right fullShare)).2
      isplitl [Hl]; · iexact Hl
      iexact Hr
    isplitl [H3]; · iexact H3
    iexact H4
  · unfold Pipeline.unscopedRest
    exact (bigSep_congr fun b hb => by rw [hrest b (Finset.mem_sdiff.mp hb).2]).symm

end Cert.KernelIdeal.Body

end
-- ==== Proof.IdealRun.lean ====
/-
  The run of `KernelIdeal`'s @main, at any float instance: one host reshape (the identifiers as a 1 x 8192 row), the
  pallas_call, five host operations (the partial column maxima reshaped to 64 x 8192 and folded by a maximum over the 64
  tiles; the row minima reshaped to a vector; their difference) and the fourteen operations of the softplus. Every weakly
  fair execution terminates, faults nowhere, leaves the two arguments as launched, and ends with the result buffer at the
  host operations' value of what the pallas_call left in its two output arrays.
-/
import proofs.«154842_j4466765988650_2_alg».proof.Proof.IdealShares

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch, -/
abbrev W0 : Dev nD → Valuation τ sig (Elt F) := fun c b => (s₀ m ρ).mem ((c : Dev nD), b)
/-- after the reshape of the identifiers (the region's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the region's exit: the two output arrays at what the write-backs leave, every other buffer as entered, -/
def W2 (c : Dev nD) : Valuation τ sig (Elt F) :=
  Function.update (Function.update (W1 m ρ c) (Proc.devRef .tc main_v1_0) ((dat0 (V1 m ρ) c).arrAt 3 cfg0.N))
    (Proc.devRef .tc main_v1_1) ((dat0 (V1 m ρ) c).arrAt 4 cfg0.N)
abbrev V2 : (c : Dev nD) → (b : Ref sig .tc) → Buf (Elt F) ((c : Thread nD τ).loc b) := fun c b => W2 m ρ c b
/-- after the fold over the tiles and the difference, -/
abbrev W3 : Dev nD → Valuation τ sig (Elt F) := fun c => StableHlo.after hostOps1 (W2 m ρ c)
/-- and after the softplus. -/
abbrev W4 : Dev nD → Valuation τ sig (Elt F) := fun c => StableHlo.after hostOps1_1 (W3 m ρ c)

theorem W2_pos (c : Dev nD) : W2 m ρ c (Proc.devRef .tc main_v1_0) = (dat0 (V1 m ρ) c).arrAt 3 cfg0.N := by
  unfold W2
  rw [Function.update_of_ne (StableHlo.devRef_ne_of_ne (by decide)), Function.update_self]
theorem W2_neg (c : Dev nD) : W2 m ρ c (Proc.devRef .tc main_v1_1) = (dat0 (V1 m ρ) c).arrAt 4 cfg0.N := by
  unfold W2
  rw [Function.update_self]
theorem W2_of_ne (c : Dev nD) (b : Ref sig .tc) (h3 : b ≠ main_v1_0) (h4 : b ≠ main_v1_1) :
    W2 m ρ c (Proc.devRef .tc b) = W1 m ρ c (Proc.devRef .tc b) := by
  unfold W2
  rw [Function.update_of_ne (StableHlo.devRef_ne_of_ne h4), Function.update_of_ne (StableHlo.devRef_ne_of_ne h3)]

/-- At the exit each window's array holds what the pipeline leaves: an input's its entry contents, an output's its
    write-backs. -/
theorem hF (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans (W2_of_ne m ρ c main_arg0 (by decide) (by decide)).symm
  | ⟨1, _⟩ => ((dat0 (V1 m ρ) c).arrAt_in 1 rfl _).trans (W2_of_ne m ρ c main_v0 (by decide) (by decide)).symm
  | ⟨2, _⟩ => ((dat0 (V1 m ρ) c).arrAt_in 2 rfl _).trans (W2_of_ne m ρ c main_v0 (by decide) (by decide)).symm
  | ⟨3, _⟩ => (W2_pos m ρ c).symm
  | ⟨4, _⟩ => (W2_neg m ρ c).symm
theorem hrest (c : Dev nD) : ∀ b, b ∉ Finset.univ.image (Pipeline.arrRef spec0) → V2 m ρ c b = V1 m ρ c b :=
  fun b hb => W2_of_ne m ρ c b (fun e => hb (Finset.mem_image.mpr ⟨3, Finset.mem_univ _, e.symm⟩))
    (fun e => hb (Finset.mem_image.mpr ⟨4, Finset.mem_univ _, e.symm⟩))

/-! ### The arguments end as launched: no host operation and no write-back touches them -/

theorem notW0 (b : Ref sig .tc) (h : b ≠ main_v0) (c : Dev nD) (X : Valuation τ sig (Elt F)) :
    StableHlo.after (hostOps0 (F := F)) X (Proc.devRef .tc b) = X (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := notW0 main_arg0 (by decide) c _
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := notW0 main_arg1 (by decide) c _
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The pallas_call over the thread state: entered from every unscoped buffer at `W1`, left at `W2`. Its arrays are
    split out of the unscoped buffers (the identifier row's share cut between its two windows) and put back at the exit;
    the generator register goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c (V1 m ρ c) ((dat0 (V1 m ρ) c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V1 m ρ) c (V1 m ρ c) (V2 m ρ c) ((dat0 (V1 m ρ) c).arrAt · cfg0.N) (hF m ρ c) (hrest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    the result buffer at the last boundary's contents and both arguments as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c)⟩)

/-- info: 'Cert.KernelIdeal.Body.run' depends on axioms: [propext, Classical.choice, Quot.sound] -/
#guard_msgs in #print axioms run

end Cert.KernelIdeal.Body

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.IdealPayload.lean ====
/-
  The body's two stored values read at an index, at the ideal instance.

  With `pr` the 128 row identifiers of the tile, `pc` the 8192 column identifiers and `cd` the tile's 128 x 8192
  distances, the mask at (a, c) is `pr a = pc c`; the first store holds, at column c, the maximum over the tile's rows a
  of (mask ? cd a c : 0) taken from -inf; the second holds, at row a, the minimum over the columns c of
  (mask ? +inf : cd a c) taken from +inf.
-/
import proofs.«154842_j4466765988650_2_alg».proof.Proof.Gen.KernelIdeal.Skeleton
import proofs.«154842_j4466765988650_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-- In an [m, n] array reduced along its rows, the index over column `t` with row `k` put back is (k, t). -/
theorem lift0_ix2 {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Reduced along its columns, the index over row `r` with column `k` put back is (r, k). -/
theorem lift1_ix2 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The mask at (a, c): the tile's row identifier a against column identifier c. -/
theorem mask_apply (v0 : Vec Ideal S1x128 .i32) (v2 : Vec Ideal S1x8192 .i32) (a : Fin 128) (c : Fin 8192) :
    k0_pay1 (F := Ideal) v0 v2 (ix2 a c) = IntOp.cmpi .eq (v0 (ix2 (0 : Fin 1) a)) (v2 (ix2 (0 : Fin 1) c)) := by
  unfold k0_pay1
  show IntOp.cmpi .eq (broadcastTo S128x8192 (shapeCast S128x1 (shapeCast S128 v0 shapeCasts_S1x128_S128) shapeCasts_S128_S128x1) broadcasts_S128x1_S128x8192 (ix2 a c))
      (broadcastTo S128x8192 (shapeCast S1x8192 (shapeCast S8192 v2 shapeCasts_S1x8192_S8192) shapeCasts_S8192_S1x8192) broadcasts_S1x8192_S128x8192 (ix2 a c)) = _
  rw [Cert.LibKeepdims.column_apply, shapeCast_1a_a_apply, broadcastTo_1b_ab_apply, shapeCast_a_1a_apply, shapeCast_1a_a_apply]

/-- The masked column maximum over the tile's rows. -/
theorem pay2_apply (v0 : Vec Ideal S1x128 .i32) (v2 : Vec Ideal S1x8192 .i32) (v9 : Vec Ideal S128x8192 .f32) (c : Fin 8192) :
    k0_pay2 (F := Ideal) v0 v2 v9 (ix3 (0 : Fin 1) (0 : Fin 1) c)
      = (Finset.univ : Finset (Fin 128)).fold max (Ideal.ofBits .f32 0xFF800000#32)
          (fun a => Scalar.select (IntOp.cmpi .eq (v0 (ix2 (0 : Fin 1) a)) (v2 (ix2 (0 : Fin 1) c))) (v9 (ix2 a c)) (Ideal.ofBits .f32 0x00000000#32)) := by
  unfold k0_pay2
  refine (shapeCast_apply _ _ _ (ix1 c) ?_).trans ?_
  · rw [Shape.rowMajor_val_one, Shape.rowMajor_val_three]
    show c.val = (0 * 1 + 0) * 8192 + c.val
    omega
  refine (Ideal.multiReduction_maximumf_single _ _ _ _ _ (ix1 c)).trans ?_
  refine congrArg (fun f => Finset.fold max (Ideal.ofBits .f32 0xFF800000#32) f (Finset.univ : Finset (Fin 128))) (funext fun a => ?_)
  show select (k0_pay1 (F := Ideal) v0 v2) v9 (broadcast S128x8192 (FloatOps.ofBits (F := Ideal) .f32 0x00000000#32)) (reduces_S128x8192_S8192.lift (ix1 c) a) = _
  rw [lift0_ix2, select_apply, mask_apply]
  rfl

/-- The masked row minimum over the columns. -/
theorem pay3_apply (v0 : Vec Ideal S1x128 .i32) (v2 : Vec Ideal S1x8192 .i32) (v9 : Vec Ideal S128x8192 .f32) (a : Fin 128) :
    k0_pay3 (F := Ideal) v0 v2 v9 (ix2 (0 : Fin 1) a)
      = (Finset.univ : Finset (Fin 8192)).fold min (Ideal.ofBits .f32 0x7F800000#32)
          (fun c => Scalar.select (IntOp.cmpi .eq (v0 (ix2 (0 : Fin 1) a)) (v2 (ix2 (0 : Fin 1) c))) (Ideal.ofBits .f32 0x7F800000#32) (v9 (ix2 a c))) := by
  unfold k0_pay3
  refine (shapeCast_a_1a_apply _ _ (0 : Fin 1) a).trans ?_
  refine (multiReduction_minimumf_eq_fold _ _ _ _ _ (ix1 a)).trans ?_
  refine (reduces_S128x8192_S128.fold_filter_drop_single _ _ _ (ix1 a)).trans ?_
  refine congrArg (fun f => Finset.fold min (Ideal.ofBits .f32 0x7F800000#32) f (Finset.univ : Finset (Fin 8192))) (funext fun c => ?_)
  show select (k0_pay1 (F := Ideal) v0 v2) (broadcast S128x8192 (FloatOps.ofBits (F := Ideal) .f32 0x7F800000#32)) v9 (reduces_S128x8192_S128.lift (ix1 a) c) = _
  rw [lift1_ix2, select_apply, mask_apply]
  rfl

end Cert.KernelIdeal.Pay

end
-- ==== Proof.IdealArrays.lean ====
/-
  What the pallas_call leaves in its two output arrays, at the ideal instance, as functions of the arrays it reads.

  With `A0` the 8192 x 8192 distances and `A1` the identifiers as a 1 x 8192 row, grid point t writes back
  * slot t of the partial maxima: at column c, the maximum from -inf over the tile's rows a of
    (A1 (128 t + a) = A1 c ? A0 (128 t + a, c) : 0);
  * entries 128 t + a of the row minima: the minimum from +inf over all columns c of
    (A1 (128 t + a) = A1 c ? +inf : A0 (128 t + a, c)).
  The 64 points' blocks tile both arrays, so after the run each array IS that function.
-/
import proofs.«154842_j4466765988650_2_alg».proof.Proof.IdealBody
import proofs.«154842_j4466765988650_2_alg».proof.Proof.IdealPayload

set_option maxRecDepth 16384

noncomputable section

namespace Cert.KernelIdeal.Arr

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Row a of tile t is row 128 t + a of the matrix. -/
def rowOf (t : Fin 64) (a : Fin 128) : Fin 8192 := ⟨128 * t.val + a.val, by have := t.isLt; have := a.isLt; omega⟩

/-- Tile t's masked column maximum at column c. -/
def gpos (A0 : S8192x8192.Idx → Elt Ideal .f32) (A1 : S1x8192.Idx → Elt Ideal .i32) (t : Fin 64) (c : Fin 8192) : Elt Ideal .f32 :=
  (Finset.univ : Finset (Fin 128)).fold max (Ideal.ofBits .f32 0xFF800000#32)
    (fun a => Scalar.select (IntOp.cmpi .eq (A1 (ix2 (0 : Fin 1) (rowOf t a))) (A1 (ix2 (0 : Fin 1) c))) (A0 (ix2 (rowOf t a) c)) (Ideal.ofBits .f32 0x00000000#32))

/-- Row r's masked minimum over the columns. -/
def gneg (A0 : S8192x8192.Idx → Elt Ideal .f32) (A1 : S1x8192.Idx → Elt Ideal .i32) (r : Fin 8192) : Elt Ideal .f32 :=
  (Finset.univ : Finset (Fin 8192)).fold min (Ideal.ofBits .f32 0x7F800000#32)
    (fun c => Scalar.select (IntOp.cmpi .eq (A1 (ix2 (0 : Fin 1) r)) (A1 (ix2 (0 : Fin 1) c))) (Ideal.ofBits .f32 0x7F800000#32) (A0 (ix2 r c)))

/-- The partial maxima as one array. -/
def Gpos (A0 : S8192x8192.Idx → Elt Ideal .f32) (A1 : S1x8192.Idx → Elt Ideal .i32) : S64x1x8192.Idx → Elt Ideal .f32 :=
  fun i => gpos A0 A1 ⟨(i 0).val, (i 0).isLt⟩ ⟨(i 2).val, (i 2).isLt⟩

/-- The row minima as one array. -/
def Gneg (A0 : S8192x8192.Idx → Elt Ideal .f32) (A1 : S1x8192.Idx → Elt Ideal .i32) : S1x8192.Idx → Elt Ideal .f32 :=
  fun i => gneg A0 A1 ⟨(i 1).val, (i 1).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the distance window and the partial-maxima window move with the point on their
    first axis, the row-identifier window and the row-minima window on their second, the column identifiers stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = t.val ∧ t.val < 64 :=
  (by decide +kernel : ∀ t : Fin grid0.N, _)

/-- WHAT POINT t WRITES BACK into the partial maxima is block t of `Gpos`. -/
theorem flushedPos_eq (c : Dev nD) (t : Fin cfg0.N) :
    (dat0 V c).flushed 3 t = ((cfg0.win 3).blk t).view.read (Elt Ideal) (Gpos (V c main_arg0) (V c main_v0)) := by
  show (cfg0.win 3).cut (grid0.coords t) ((dat0 V c).after 3 t) = _
  rw [after_3]
  unfold outPos
  rw [View.canon_unit_zero hz3]
  simp only [View.ld_unit_zero (S := S128x8192) hz2, View.ld_unit_zero (S := S1x128) hz2, View.ld_unit_zero (S := S1x8192) hz2]
  obtain ⟨e00, e01, e10, e11, e20, e21, e30, e31, e32, e40, e41, ht⟩ := idx_facts t
  funext j
  obtain ⟨u0, u1, cc, rfl⟩ : ∃ (u0 : Fin 1) (u1 : Fin 1) (cc : Fin 8192), (j : S1x1x8192.Idx) = ix3 u0 u1 cc := ⟨j 0, j 1, j 2, eq_ix3 j⟩
  obtain rfl : u0 = 0 := Subsingleton.elim _ _
  obtain rfl : u1 = 0 := Subsingleton.elim _ _
  show k0_pay2 (F := Ideal) (iblk V c 1 t) (iblk V c 2 t) (iblk V c 0 t) (ix3 (0 : Fin 1) (0 : Fin 1) cc)
      = Gpos (V c main_arg0) (V c main_v0) (((cfg0.win 3).blk t).view.emb (ix3 (0 : Fin 1) (0 : Fin 1) cc))
  refine (Pay.pay2_apply _ _ _ cc).trans ?_
  unfold Gpos gpos
  refine congrArg (fun f => Finset.fold max (Ideal.ofBits .f32 0xFF800000#32) f (Finset.univ : Finset (Fin 128))) (funext fun a => ?_)
  have h1 : iblk V c 1 t (ix2 (0 : Fin 1) a) = V c main_v0 (ix2 (0 : Fin 1) (rowOf ⟨((((cfg0.win 3).blk t).view.emb (ix3 (0 : Fin 1) (0 : Fin 1) cc)) 0).val, ((((cfg0.win 3).blk t).view.emb (ix3 (0 : Fin 1) (0 : Fin 1) cc)) 0).isLt⟩ a)) := by
    show V c main_v0 (((cfg0.win 1).blk t).view.emb (ix2 (0 : Fin 1) a)) = _
    refine congrArg (V c main_v0) (funext fun ax => Fin.ext ?_)
    match ax with
    | ⟨0, _⟩ => show win0_1.index t (0 : Fin 2) * 1 + 1 * 0 = 0; omega
    | ⟨1, _⟩ => show win0_1.index t (1 : Fin 2) * 128 + 1 * a.val = 128 * (win0_3.index t (0 : Fin 3) * 1 + 1 * 0) + a.val; omega
  have h2 : iblk V c 2 t (ix2 (0 : Fin 1) cc) = V c main_v0 (ix2 (0 : Fin 1) ⟨((((cfg0.win 3).blk t).view.emb (ix3 (0 : Fin 1) (0 : Fin 1) cc)) 2).val, ((((cfg0.win 3).blk t).view.emb (ix3 (0 : Fin 1) (0 : Fin 1) cc)) 2).isLt⟩) := by
    show V c main_v0 (((cfg0.win 2).blk t).view.emb (ix2 (0 : Fin 1) cc)) = _
    refine congrArg (V c main_v0) (funext fun ax => Fin.ext ?_)
    match ax with
    | ⟨0, _⟩ => show win0_2.index t (0 : Fin 2) * 1 + 1 * 0 = 0; omega
    | ⟨1, _⟩ => show win0_2.index t (1 : Fin 2) * 8192 + 1 * cc.val = win0_3.index t (2 : Fin 3) * 8192 + 1 * cc.val; omega
  have h0 : iblk V c 0 t (ix2 a cc) = V c main_arg0 (ix2 (rowOf ⟨((((cfg0.win 3).blk t).view.emb (ix3 (0 : Fin 1) (0 : Fin 1) cc)) 0).val, ((((cfg0.win 3).blk t).view.emb (ix3 (0 : Fin 1) (0 : Fin 1) cc)) 0).isLt⟩ a) ⟨((((cfg0.win 3).blk t).view.emb (ix3 (0 : Fin 1) (0 : Fin 1) cc)) 2).val, ((((cfg0.win 3).blk t).view.emb (ix3 (0 : Fin 1) (0 : Fin 1) cc)) 2).isLt⟩) := by
    show V c main_arg0 (((cfg0.win 0).blk t).view.emb (ix2 a cc)) = _
    refine congrArg (V c main_arg0) (funext fun ax => Fin.ext ?_)
    match ax with
    | ⟨0, _⟩ => show win0_0.index t (0 : Fin 2) * 128 + 1 * a.val = 128 * (win0_3.index t (0 : Fin 3) * 1 + 1 * 0) + a.val; omega
    | ⟨1, _⟩ => show win0_0.index t (1 : Fin 2) * 8192 + 1 * cc.val = win0_3.index t (2 : Fin 3) * 8192 + 1 * cc.val; omega
  rw [h1, h2, h0]

/-- WHAT POINT t WRITES BACK into the row minima is block t of `Gneg`. -/
theorem flushedNeg_eq (c : Dev nD) (t : Fin cfg0.N) :
    (dat0 V c).flushed 4 t = ((cfg0.win 4).blk t).view.read (Elt Ideal) (Gneg (V c main_arg0) (V c main_v0)) := by
  show (cfg0.win 4).cut (grid0.coords t) ((dat0 V c).after 4 t) = _
  rw [after_4]
  unfold outNeg
  rw [View.canon_unit_zero hz2]
  simp only [View.ld_unit_zero (S := S128x8192) hz2, View.ld_unit_zero (S := S1x128) hz2, View.ld_unit_zero (S := S1x8192) hz2]
  obtain ⟨e00, e01, e10, e11, e20, e21, e30, e31, e32, e40, e41, ht⟩ := idx_facts t
  funext j
  obtain ⟨u0, a, rfl⟩ : ∃ (u0 : Fin 1) (a : Fin 128), (j : S1x128.Idx) = ix2 u0 a := ⟨j 0, j 1, eq_ix2 j⟩
  obtain rfl : u0 = 0 := Subsingleton.elim _ _
  show k0_pay3 (F := Ideal) (iblk V c 1 t) (iblk V c 2 t) (iblk V c 0 t) (ix2 (0 : Fin 1) a)
      = Gneg (V c main_arg0) (V c main_v0) (((cfg0.win 4).blk t).view.emb (ix2 (0 : Fin 1) a))
  refine (Pay.pay3_apply _ _ _ a).trans ?_
  unfold Gneg gneg
  refine congrArg (fun f => Finset.fold min (Ideal.ofBits .f32 0x7F800000#32) f (Finset.univ : Finset (Fin 8192))) (funext fun cc => ?_)
  have h1 : iblk V c 1 t (ix2 (0 : Fin 1) a) = V c main_v0 (ix2 (0 : Fin 1) ⟨((((cfg0.win 4).blk t).view.emb (ix2 (0 : Fin 1) a)) 1).val, ((((cfg0.win 4).blk t).view.emb (ix2 (0 : Fin 1) a)) 1).isLt⟩) := by
    show V c main_v0 (((cfg0.win 1).blk t).view.emb (ix2 (0 : Fin 1) a)) = _
    refine congrArg (V c main_v0) (funext fun ax => Fin.ext ?_)
    match ax with
    | ⟨0, _⟩ => show win0_1.index t (0 : Fin 2) * 1 + 1 * 0 = 0; omega
    | ⟨1, _⟩ => show win0_1.index t (1 : Fin 2) * 128 + 1 * a.val = win0_4.index t (1 : Fin 2) * 128 + 1 * a.val; omega
  have h2 : iblk V c 2 t (ix2 (0 : Fin 1) cc) = V c main_v0 (ix2 (0 : Fin 1) cc) := by
    show V c main_v0 (((cfg0.win 2).blk t).view.emb (ix2 (0 : Fin 1) cc)) = _
    refine congrArg (V c main_v0) (funext fun ax => Fin.ext ?_)
    match ax with
    | ⟨0, _⟩ => show win0_2.index t (0 : Fin 2) * 1 + 1 * 0 = 0; omega
    | ⟨1, _⟩ => show win0_2.index t (1 : Fin 2) * 8192 + 1 * cc.val = cc.val; omega
  have h0 : iblk V c 0 t (ix2 a cc) = V c main_arg0 (ix2 ⟨((((cfg0.win 4).blk t).view.emb (ix2 (0 : Fin 1) a)) 1).val, ((((cfg0.win 4).blk t).view.emb (ix2 (0 : Fin 1) a)) 1).isLt⟩ cc) := by
    show V c main_arg0 (((cfg0.win 0).blk t).view.emb (ix2 a cc)) = _
    refine congrArg (V c main_arg0) (funext fun ax => Fin.ext ?_)
    match ax with
    | ⟨0, _⟩ => show win0_0.index t (0 : Fin 2) * 128 + 1 * a.val = win0_4.index t (1 : Fin 2) * 128 + 1 * a.val; omega
    | ⟨1, _⟩ => show win0_0.index t (1 : Fin 2) * 8192 + 1 * cc.val = cc.val; omega
  rw [h1, h2, h0]

/-- An index of the partial maxima is in point t's block iff each coordinate is in the block's range on its axis. -/
theorem mem_blkPos (t : Fin cfg0.N) (i : S64x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v1_0).slice (win0_3.rect t)).set ↔ _
  rw [View.set_slice_whole, Rect.mem_set_unit]
  exact Iff.rfl

/-- The same for the row minima. -/
theorem mem_blkNeg (t : Fin cfg0.N) (i : S1x8192.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v1_1).slice (win0_4.rect t)).set ↔ _
  rw [View.set_slice_whole, Rect.mem_set_unit]
  exact Iff.rfl

/-- Slot s of the partial maxima is point s's block. -/
theorem coverPos (i : S64x1x8192.Idx) : ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 8192 := (i 2).isLt
  refine ⟨⟨(i 0).val, by rw [show cfg0.N = 64 from N_0]; exact h0⟩, flush0_3 _, ?_⟩
  obtain ⟨e00, e01, e10, e11, e20, e21, e30, e31, e32, e40, e41, ht⟩ := idx_facts ⟨(i 0).val, by rw [show cfg0.N = 64 from N_0]; exact h0⟩
  rw [mem_blkPos]
  intro a
  match a with
  | ⟨0, _⟩ => show win0_3.index _ (0 : Fin 3) * 1 ≤ (i 0).val ∧ (i 0).val < win0_3.index _ (0 : Fin 3) * 1 + 1; rw [e30]; show (i 0).val * 1 ≤ (i 0).val ∧ (i 0).val < (i 0).val * 1 + 1; omega
  | ⟨1, _⟩ => show win0_3.index _ (1 : Fin 3) * 1 ≤ (i 1).val ∧ (i 1).val < win0_3.index _ (1 : Fin 3) * 1 + 1; rw [e31]; omega
  | ⟨2, _⟩ => show win0_3.index _ (2 : Fin 3) * 8192 ≤ (i 2).val ∧ (i 2).val < win0_3.index _ (2 : Fin 3) * 8192 + 8192; rw [e32]; omega

/-- Entry r of the row minima is in point r / 128's block. -/
theorem coverNeg (i : S1x8192.Idx) : ∃ t : Fin cfg0.N, (cfg0.win 4).flush t = true ∧ i ∈ ((cfg0.win 4).blk t).view.set := by
  have h0 : (i 0).val < 1 := (i 0).isLt
  have h1 : (i 1).val < 8192 := (i 1).isLt
  have hq : (i 1).val / 128 < 64 := by omega
  refine ⟨⟨(i 1).val / 128, by rw [show cfg0.N = 64 from N_0]; exact hq⟩, flush0_4 _, ?_⟩
  obtain ⟨e00, e01, e10, e11, e20, e21, e30, e31, e32, e40, e41, ht⟩ := idx_facts ⟨(i 1).val / 128, by rw [show cfg0.N = 64 from N_0]; exact hq⟩
  rw [mem_blkNeg]
  intro a
  match a with
  | ⟨0, _⟩ => show win0_4.index _ (0 : Fin 2) * 1 ≤ (i 0).val ∧ (i 0).val < win0_4.index _ (0 : Fin 2) * 1 + 1; rw [e40]; omega
  | ⟨1, _⟩ => show win0_4.index _ (1 : Fin 2) * 128 ≤ (i 1).val ∧ (i 1).val < win0_4.index _ (1 : Fin 2) * 128 + 128; rw [e41]; show (i 1).val / 128 * 128 ≤ (i 1).val ∧ (i 1).val < (i 1).val / 128 * 128 + 128; omega

/-- THE PARTIAL MAXIMA after the run. -/
theorem finalPos (c : Dev nD) : (dat0 V c).arrAt 3 cfg0.N = Gpos (V c main_arg0) (V c main_v0) :=
  (dat0 V c).arrAt_eq_of_cover 3 _ (fun t _ => flushedPos_eq V c t) coverPos

/-- THE ROW MINIMA after the run. -/
theorem finalNeg (c : Dev nD) : (dat0 V c).arrAt 4 cfg0.N = Gneg (V c main_arg0) (V c main_v0) :=
  (dat0 V c).arrAt_eq_of_cover 4 _ (fun t _ => flushedNeg_eq V c t) coverNeg

end Cert.KernelIdeal.Arr

end
-- ==== Proof.LibSupBlocks.lean ====
/-
  A maximum taken block by block.

  Over a linear order with a least element, folding `max` from the least element over a finite set is the set's
  supremum; and the supremum over `Fin (a * b)` is the supremum over the `a` blocks of the suprema over the `b` members
  of each block, member `k` of block `s` being index `b * s + k`. So a column maximum computed tile by tile and then
  combined over the tiles is the column maximum.
-/
import Idealize.ShloMosaic.Lib.ValueIdx

namespace Cert.LibSupBlocks

variable {α : Type*} [LinearOrder α] [OrderBot α]

/-- Folding `max` from the least element is the supremum. -/
theorem fold_max_bot_eq_sup {ι : Type*} (s : Finset ι) (f : ι → α) : s.fold max ⊥ f = s.sup f := by
  classical
  induction s using Finset.induction_on with
  | empty => simp
  | insert i s hi ih => rw [Finset.fold_insert hi, Finset.sup_insert, ih]

/-- Member `k` of block `s` lies below `a * b`. -/
theorem blk_lt {a b : ℕ} (s : Fin a) (k : Fin b) : b * s.val + k.val < a * b := by
  have hs : s.val + 1 ≤ a := s.isLt
  have hk := k.isLt
  calc b * s.val + k.val < b * s.val + b := by omega
    _ = b * (s.val + 1) := by ring
    _ ≤ b * a := Nat.mul_le_mul_left b hs
    _ = a * b := Nat.mul_comm b a

/-- The supremum over `Fin (a * b)`, block by block. -/
theorem sup_fin_blocks {a b : ℕ} (g : Fin (a * b) → α) :
    (Finset.univ : Finset (Fin (a * b))).sup g
      = (Finset.univ : Finset (Fin a)).sup fun s => (Finset.univ : Finset (Fin b)).sup fun k => g ⟨b * s.val + k.val, blk_lt s k⟩ := by
  apply le_antisymm
  · refine Finset.sup_le fun r _ => ?_
    have hr : r.val < a * b := r.isLt
    have hb : 0 < b := Nat.pos_of_ne_zero fun h => by subst h; simp at hr
    have hq : r.val / b < a := Nat.div_lt_of_lt_mul (lt_of_lt_of_eq hr (Nat.mul_comm a b))
    have hm : r.val % b < b := Nat.mod_lt _ hb
    have e : r = ⟨b * (⟨r.val / b, hq⟩ : Fin a).val + (⟨r.val % b, hm⟩ : Fin b).val, blk_lt _ _⟩ :=
      Fin.ext (Nat.div_add_mod r.val b).symm
    calc g r = g ⟨b * (⟨r.val / b, hq⟩ : Fin a).val + (⟨r.val % b, hm⟩ : Fin b).val, blk_lt _ _⟩ := congrArg g e
      _ ≤ (Finset.univ : Finset (Fin b)).sup fun k => g ⟨b * (⟨r.val / b, hq⟩ : Fin a).val + k.val, blk_lt _ k⟩ :=
          Finset.le_sup (f := fun k : Fin b => g ⟨b * (⟨r.val / b, hq⟩ : Fin a).val + k.val, blk_lt _ k⟩) (Finset.mem_univ _)
      _ ≤ _ := Finset.le_sup (f := fun s : Fin a => (Finset.univ : Finset (Fin b)).sup fun k => g ⟨b * s.val + k.val, blk_lt s k⟩)
          (Finset.mem_univ (⟨r.val / b, hq⟩ : Fin a))
  · refine Finset.sup_le fun s _ => Finset.sup_le fun k _ => ?_
    exact Finset.le_sup (f := g) (Finset.mem_univ _)

end Cert.LibSupBlocks
-- ==== Proof.IdealResult.lean ====
/-
  The result of the idealized kernel's @main as one term of the launch memory, and that term's two halves read at an
  index.

  After the pallas_call the host folds the partial column maxima over the 64 tiles, subtracts the row minima and applies
  the softplus. With the two output arrays in closed form, the column half at c is the supremum over ALL 8192 rows r of
  (id r = id c ? d r c : 0) — the maximum of the 64 tile maxima, each a maximum from -inf, which is the least extended
  real — and the row half at r is the minimum from +inf over the columns c of (id r = id c ? +inf : d r c).
-/
import proofs.«154842_j4466765988650_2_alg».proof.Proof.IdealRun
import proofs.«154842_j4466765988650_2_alg».proof.Proof.IdealArrays
import proofs.«154842_j4466765988650_2_alg».proof.Proof.LibSupBlocks

set_option maxRecDepth 16384

noncomputable section

namespace Cert.KernelIdeal.Res

open Cert.KernelIdeal Cert.KernelIdeal.Gen Cert.KernelIdeal.Body Cert.KernelIdeal.Arr
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The softplus of a difference vector, as the host prints it. -/
def tailT (d : FVec Ideal S8192 .f32) : FVec Ideal S8192 .f32 :=
  select (cmpf .une (subf d (broadcastInDim S8192 ![] bcast_S_S8192 (constant (F := Ideal) S_ .f32 0x00000000#32)))
      (subf d (broadcastInDim S8192 ![] bcast_S_S8192 (constant (F := Ideal) S_ .f32 0x00000000#32))))
    (addf d (broadcastInDim S8192 ![] bcast_S_S8192 (constant (F := Ideal) S_ .f32 0x00000000#32)))
    (addf (maximumf d (broadcastInDim S8192 ![] bcast_S_S8192 (constant (F := Ideal) S_ .f32 0x00000000#32)))
      (Host.log1p (F := Ideal) (Host.exp (F := Ideal) (Host.negf (F := Ideal) (Host.absf (F := Ideal)
        (subf d (broadcastInDim S8192 ![] bcast_S_S8192 (constant (F := Ideal) S_ .f32 0x00000000#32))))))))

set_option maxHeartbeats 2000000 in
/-- The fourteen softplus operations, from any contents: the result buffer ends at the softplus of the difference buffer. -/
theorem tail_eq (X : Valuation τ sig (Elt Ideal)) :
    StableHlo.after (hostOps1_1 (F := Ideal)) X (Proc.devRef .tc main_v6) = tailT (X (Proc.devRef .tc main_v5)) := by
  simp only [hostOps1_1]
  after_results
  rfl

set_option maxHeartbeats 2000000 in
/-- The five operations between the region and the softplus, from any contents: the difference buffer ends at the fold of
    the partial maxima over the tiles less the row minima. -/
theorem diff_eq (X : Valuation τ sig (Elt Ideal)) :
    StableHlo.after (hostOps1 (F := Ideal)) X (Proc.devRef .tc main_v5)
      = subf (Host.reduce (FloatOps.maximumf (F := Ideal) (φ := .f32)) (shapeCast S64x8192 (X (Proc.devRef .tc main_v1_0)) shapeCasts_S64x1x8192_S64x8192)
          (constant (F := Ideal) S_ .f32 0xFF800000#32) reducesTo_S64x8192_S8192_d0 h_S_)
        (shapeCast S8192 (X (Proc.devRef .tc main_v1_1)) shapeCasts_S1x8192_S8192) := by
  simp only [hostOps1]
  after_results
  rfl

/-- The region finds the distances as launched, -/
theorem V1_arg0 (c : Dev nD) : V1 m ρ c main_arg0 = m ((c : Thread nD τ).loc main_arg0) :=
  notW0 main_arg0 (by decide) c _

/-- and the identifiers as the 1 x 8192 row the host reshape made of them. -/
theorem V1_ids (c : Dev nD) : V1 m ρ c main_v0 = shapeCast S1x8192 (m ((c : Thread nD τ).loc main_arg1)) shapeCasts_S8192_S1x8192 := by
  show StableHlo.after (hostOps0 (F := Ideal)) (W0 m ρ c) (Proc.devRef .tc main_v0) = _
  simp only [hostOps0]
  after_results
  rfl

/-- The identifiers as the 1 x 8192 row the region reads. -/
def ids (x1 : S8192.Idx → Elt Ideal .i32) : S1x8192.Idx → Elt Ideal .i32 := shapeCast S1x8192 x1 shapeCasts_S8192_S1x8192

theorem ids_apply (x1 : S8192.Idx → Elt Ideal .i32) (j : Fin 8192) : ids x1 (ix2 (0 : Fin 1) j) = x1 (ix1 j) :=
  shapeCast_a_1a_apply _ _ (0 : Fin 1) j

/-- The column half: the partial maxima folded over the tiles. -/
def colHalf (x0 : S8192x8192.Idx → Elt Ideal .f32) (x1 : S8192.Idx → Elt Ideal .i32) : FVec Ideal S8192 .f32 :=
  Host.reduce (FloatOps.maximumf (F := Ideal) (φ := .f32)) (shapeCast S64x8192 (Gpos x0 (ids x1)) shapeCasts_S64x1x8192_S64x8192)
    (constant (F := Ideal) S_ .f32 0xFF800000#32) reducesTo_S64x8192_S8192_d0 h_S_

/-- The row half: the row minima as a vector. -/
def rowHalf (x0 : S8192x8192.Idx → Elt Ideal .f32) (x1 : S8192.Idx → Elt Ideal .i32) : FVec Ideal S8192 .f32 :=
  shapeCast S8192 (Gneg x0 (ids x1)) shapeCasts_S1x8192_S8192

/-- The whole result as a function of the two arguments. -/
def resultOf (x0 : S8192x8192.Idx → Elt Ideal .f32) (x1 : S8192.Idx → Elt Ideal .i32) : FVec Ideal S8192 .f32 :=
  tailT (subf (colHalf x0 x1) (rowHalf x0 x1))

/-- THE KERNEL'S RESULT, from the launch memory. -/
theorem kernel_result (c : Dev nD) : W4 m ρ c (Proc.devRef .tc main_v6)
    = resultOf (m ((c : Thread nD τ).loc main_arg0)) (m ((c : Thread nD τ).loc main_arg1)) := by
  show StableHlo.after (hostOps1_1 (F := Ideal)) (W3 m ρ c) (Proc.devRef .tc main_v6) = _
  rw [tail_eq]
  show tailT (StableHlo.after (hostOps1 (F := Ideal)) (W2 m ρ c) (Proc.devRef .tc main_v5)) = _
  rw [diff_eq, W2_pos, W2_neg, finalPos, finalNeg, V1_arg0, V1_ids]
  rfl

/-! ## The two halves at an index -/

/-- One entry of the masked maximum: the distance where the identifiers agree, zero elsewhere. -/
def termPos (A0 : S8192x8192.Idx → Elt Ideal .f32) (A1 : S1x8192.Idx → Elt Ideal .i32) (r c : Fin 8192) : Elt Ideal .f32 :=
  Scalar.select (IntOp.cmpi .eq (A1 (ix2 (0 : Fin 1) r)) (A1 (ix2 (0 : Fin 1) c))) (A0 (ix2 r c)) (Ideal.ofBits .f32 0x00000000#32)

/-- The word of -inf is the least extended real. -/
theorem neg_inf_eq_bot : Ideal.ofBits .f32 0xFF800000#32 = (⊥ : EReal) := by
  simp [Ideal.ofBits, Ideal.ieee]

/-- The fold over the tiles of the tile maxima, at column c, is the supremum over all rows. -/
theorem col_apply (A0 : S8192x8192.Idx → Elt Ideal .f32) (A1 : S1x8192.Idx → Elt Ideal .i32) (c : Fin 8192) :
    Host.reduce (FloatOps.maximumf (F := Ideal) (φ := .f32)) (shapeCast S64x8192 (Gpos A0 A1) shapeCasts_S64x1x8192_S64x8192)
        (constant (F := Ideal) S_ .f32 0xFF800000#32) reducesTo_S64x8192_S8192_d0 h_S_ (ix1 c)
      = (Finset.univ : Finset (Fin 8192)).sup fun r => termPos A0 A1 r c := by
  have hred : S64x8192.Reduces [0] S8192 := by decide
  refine (Host.reduce_eq_fold_single _ _ _ _ hred h_S_ (ix1 c)).trans ?_
  have hf : ((shapeCast S64x8192 (Gpos A0 A1) shapeCasts_S64x1x8192_S64x8192) ∘ hred.lift (ix1 c)) = fun t : Fin 64 => gpos A0 A1 t c :=
    funext fun t => by
      show shapeCast S64x8192 (Gpos A0 A1) shapeCasts_S64x1x8192_S64x8192 (hred.lift (ix1 c) t) = _
      rw [Pay.lift0_ix2]
      refine (shapeCast_apply _ _ _ (ix3 (⟨t.val, t.isLt⟩ : Fin 64) (0 : Fin 1) c) ?_).trans ?_
      · rw [Shape.rowMajor_val_three, Shape.rowMajor_val_two]
        show (t.val * 1 + 0) * 8192 + c.val = t.val * 8192 + c.val
        omega
      · rfl
  refine (congrArg (fun f => Finset.fold max (Ideal.ofBits .f32 0xFF800000#32) f (Finset.univ : Finset (Fin 64))) hf).trans ?_
  unfold gpos
  rw [neg_inf_eq_bot, Cert.LibSupBlocks.fold_max_bot_eq_sup]
  simp only [Cert.LibSupBlocks.fold_max_bot_eq_sup]
  exact (Cert.LibSupBlocks.sup_fin_blocks (a := 64) (b := 128) (fun r : Fin 8192 => termPos A0 A1 r c)).symm

/-- The row minima read as a vector, at row r. -/
theorem row_apply (A0 : S8192x8192.Idx → Elt Ideal .f32) (A1 : S1x8192.Idx → Elt Ideal .i32) (r : Fin 8192) :
    shapeCast S8192 (Gneg A0 A1) shapeCasts_S1x8192_S8192 (ix1 r) = gneg A0 A1 r :=
  shapeCast_1a_a_apply _ _ r

theorem colHalf_apply (x0 : S8192x8192.Idx → Elt Ideal .f32) (x1 : S8192.Idx → Elt Ideal .i32) (c : Fin 8192) :
    colHalf x0 x1 (ix1 c) = (Finset.univ : Finset (Fin 8192)).sup fun r => termPos x0 (ids x1) r c :=
  col_apply x0 (ids x1) c

theorem rowHalf_apply (x0 : S8192x8192.Idx → Elt Ideal .f32) (x1 : S8192.Idx → Elt Ideal .i32) (r : Fin 8192) :
    rowHalf x0 x1 (ix1 r) = gneg x0 (ids x1) r :=
  row_apply x0 (ids x1) r

end Cert.KernelIdeal.Res

end
-- ==== Proof.RefResult.lean ====
/-
  The reference computes the same function of its arguments as the idealized kernel.

  At an index the reference's column half is the maximum from -inf over all rows r of d r c times (id c = id r as 0 / 1),
  and its row half the minimum from +inf over all columns c of (id c = id r ? +inf : d r c). A product with the 0 / 1
  mask is the distance where the identifiers agree and zero elsewhere (x * 1 = x and x * 0 = 0 for EVERY extended real, so
  finiteness of the distances is not used), equality of identifiers is symmetric, and folding `max` from -inf is the
  supremum: these are the kernel's two halves, and the softplus on top is one and the same term on both sides.
-/
import proofs.«154842_j4466765988650_2_alg».proof.Proof.Gen.ReferenceIdeal.Read
import proofs.«154842_j4466765988650_2_alg».proof.Proof.IdealResult

set_option maxRecDepth 16384

noncomputable section

namespace Cert.RefResult

open Cert.ReferenceIdeal Cert.ReferenceIdeal.Gen Cert.ReferenceIdeal.Read
open Idealize.ShloMosaic Idealize.ShloMosaic.ValueIdx
open Cert.KernelIdeal.Res (tailT termPos ids ids_apply colHalf rowHalf resultOf colHalf_apply rowHalf_apply neg_inf_eq_bot)
open Cert.KernelIdeal.Arr (gneg)

/-- Equality of two identifiers, as a bit, is symmetric. -/
theorem cmpi_eq_comm (u v : BitVec 32) : IntOp.cmpi .eq u v = IntOp.cmpi .eq v u := by
  unfold IntOp.cmpi
  by_cases h : u = v
  · subst h; rfl
  · have h' : ¬ v = u := fun e => h e.symm
    show BitVec.ofBool (u == v) = BitVec.ofBool (v == u)
    rw [beq_eq_false_iff_ne.mpr h, beq_eq_false_iff_ne.mpr h']

/-- A distance times the 0 / 1 mask is the distance where the identifiers agree and zero elsewhere. -/
theorem mul_mask (x : EReal) (u v : BitVec 32) :
    x * (((IntOp.cmpi .eq u v).toNat : ℝ) : EReal) = Scalar.select (IntOp.cmpi .eq v u) x (Ideal.ofBits .f32 0x00000000#32) := by
  by_cases h : u = v
  · subst h; simp [IntOp.cmpi, Scalar.select]
  · have h' : ¬ v = u := fun e => h e.symm
    have hb : (u == v) = false := beq_eq_false_iff_ne.mpr h
    have hb' : (v == u) = false := beq_eq_false_iff_ne.mpr h'
    simp [IntOp.cmpi, Scalar.select, hb, hb']

/-- The reference's mask at (r, c): column identifier against row identifier. -/
theorem mask_ref (x1 : (⟨S8192, .i32⟩ : BufTy).Contents (Elt Ideal)) (r c : Fin 8192) :
    val_main_v4 (F := Ideal) x1 (ix2 r c) = IntOp.cmpi .eq (x1 (ix1 c)) (x1 (ix1 r)) := by
  have e0 : idx_main_v0 (idx_main_v2 (ix2 r c)) = ix1 c := funext fun a => Fin.ext (by match a with | ⟨0, _⟩ => rfl)
  have e1 : idx_main_v1 (idx_main_v3 (ix2 r c)) = ix1 r := funext fun a => Fin.ext (by match a with | ⟨0, _⟩ => rfl)
  rw [val_main_v4_apply, val_main_v2_apply, val_main_v0_apply, val_main_v3_apply, val_main_v1_apply, e0, e1]

/-- The reference's column half at c. -/
theorem ref_col (x0 : (⟨S8192x8192, .f32⟩ : BufTy).Contents (Elt Ideal)) (x1 : (⟨S8192, .i32⟩ : BufTy).Contents (Elt Ideal)) (c : Fin 8192) :
    val_main_v7 (F := Ideal) x0 x1 (ix1 c) = (Finset.univ : Finset (Fin 8192)).sup fun r => termPos x0 (ids x1) r c := by
  have hred : S8192x8192.Reduces [0] S8192 := by decide
  unfold val_main_v7
  refine (Host.reduce_eq_fold_single _ _ _ _ hred h_S_ (ix1 c)).trans ?_
  have key : ∀ r : Fin 8192, val_main_v6 (F := Ideal) x0 x1 (ix2 r c) = termPos x0 (ids x1) r c := fun r => by
    rw [val_main_v6_apply, val_main_v5_apply, mask_ref]
    unfold termPos
    rw [ids_apply, ids_apply]
    exact mul_mask _ _ _
  have hf : (val_main_v6 (F := Ideal) x0 x1 ∘ hred.lift (ix1 c)) = fun r : Fin 8192 => termPos x0 (ids x1) r c :=
    funext fun r => by
      show val_main_v6 (F := Ideal) x0 x1 (hred.lift (ix1 c) r) = _
      rw [Cert.KernelIdeal.Pay.lift0_ix2]
      exact key _
  refine (congrArg (fun f => Finset.fold max (Ideal.ofBits .f32 0xFF800000#32) f (Finset.univ : Finset (Fin 8192))) hf).trans ?_
  rw [neg_inf_eq_bot, Cert.LibSupBlocks.fold_max_bot_eq_sup]

/-- The reference's row half at r. -/
theorem ref_row (x0 : (⟨S8192x8192, .f32⟩ : BufTy).Contents (Elt Ideal)) (x1 : (⟨S8192, .i32⟩ : BufTy).Contents (Elt Ideal)) (r : Fin 8192) :
    val_main_v9 (F := Ideal) x0 x1 (ix1 r) = gneg x0 (ids x1) r := by
  have hred : S8192x8192.Reduces [1] S8192 := by decide
  unfold val_main_v9
  refine (Host.reduce_eq_fold_single _ _ _ _ hred h_S_ (ix1 r)).trans ?_
  have key : ∀ c : Fin 8192, val_main_v8 (F := Ideal) x0 x1 (ix2 r c)
      = Scalar.select (IntOp.cmpi .eq (ids x1 (ix2 (0 : Fin 1) r)) (ids x1 (ix2 (0 : Fin 1) c))) (Ideal.ofBits .f32 0x7F800000#32) (x0 (ix2 r c)) := fun c => by
    rw [val_main_v8_apply, mask_ref, val_main_call0_v0_apply, val_main_cst_0_apply, ids_apply, ids_apply, cmpi_eq_comm]
    rfl
  unfold gneg
  refine congrArg (fun f => Finset.fold min (Ideal.ofBits .f32 0x7F800000#32) f (Finset.univ : Finset (Fin 8192))) (funext fun c => ?_)
  show val_main_v8 (F := Ideal) x0 x1 (hred.lift (ix1 r) c) = _
  rw [Cert.KernelIdeal.Pay.lift1_ix2]
  exact key _

/-- THE REFERENCE'S RESULT is the kernel's function of the arguments. -/
theorem ref_eq (x0 : (⟨S8192x8192, .f32⟩ : BufTy).Contents (Elt Ideal)) (x1 : (⟨S8192, .i32⟩ : BufTy).Contents (Elt Ideal)) :
    val_main_v11 (F := Ideal) x0 x1 = resultOf x0 x1 := by
  have hc : val_main_v7 (F := Ideal) x0 x1 = colHalf x0 x1 := funext fun j => by
    obtain ⟨c, rfl⟩ : ∃ c : Fin 8192, j = ix1 c := ⟨j 0, eq_ix1 j⟩
    rw [ref_col, colHalf_apply]
  have hr : val_main_v9 (F := Ideal) x0 x1 = rowHalf x0 x1 := funext fun j => by
    obtain ⟨r, rfl⟩ : ∃ r : Fin 8192, j = ix1 r := ⟨j 0, eq_ix1 j⟩
    rw [ref_row, rowHalf_apply]
  show tailT (subf (val_main_v7 (F := Ideal) x0 x1) (val_main_v9 (F := Ideal) x0 x1)) = _
  rw [hc, hr]
  rfl

end Cert.RefResult

end
-- ==== Proof.lean ====
/-
  Batch-hard triplet reduction: the tiled kernel against the plain reference, over the extended reals.

  Both programs take an 8192 x 8192 matrix d of distances and 8192 identifiers, and return, entry j,
  softplus (P j - N j) with
    P j = max over rows r of (id r = id j ? d r j : 0)          (the furthest positive, a column maximum)
    N j = min over columns c of (id j = id c ? +inf : d j c)    (the closest negative, a row minimum).
  The kernel walks 64 tiles of 128 rows: per tile it writes the tile's partial column maxima and the tile's complete row
  minima, and the host folds the partial maxima over the tiles; the reference multiplies d by the 0 / 1 mask and reduces
  once. The two agree at every extended real: a product with 0 or 1 is a selection, equality of identifiers is symmetric,
  and a maximum from -inf taken tile by tile is the maximum (IdealResult, RefResult). No property of the inputs is used.

  The kernel's two identifier windows read one array, so the region is launched as one whose windows may share arrays:
  the body's triple and the proof data (IdealBody / BitsBody), the array's share cut between its two windows at the region's entry and rejoined at its exit
  (IdealShares / BitsShares), and @main as four segments — a reshape, the region, the fold and difference, the softplus —
  (IdealRun / BitsRun), once for the program as printed and once for its idealization. The reference's frame and run are
  its generated run. The ideal pass rewrote nothing, so the preservation claim is `True`.
-/
import proofs.«154842_j4466765988650_2_alg».proof.Defs
import proofs.«154842_j4466765988650_2_alg».proof.Proof.Gen.Kernel
import proofs.«154842_j4466765988650_2_alg».proof.Proof.Gen.Kernel.Skeleton
import proofs.«154842_j4466765988650_2_alg».proof.Proof.Gen.Kernel.Launch
import proofs.«154842_j4466765988650_2_alg».proof.Proof.Gen.Kernel.Points
import proofs.«154842_j4466765988650_2_alg».proof.Proof.Gen.KernelIdeal
import proofs.«154842_j4466765988650_2_alg».proof.Proof.Gen.KernelIdeal.Skeleton
import proofs.«154842_j4466765988650_2_alg».proof.Proof.Gen.KernelIdeal.Launch
import proofs.«154842_j4466765988650_2_alg».proof.Proof.Gen.KernelIdeal.Points
import proofs.«154842_j4466765988650_2_alg».proof.Proof.Gen.ReferenceIdeal
import proofs.«154842_j4466765988650_2_alg».proof.Proof.Gen.Pre_finite_inputs
import proofs.«154842_j4466765988650_2_alg».proof.Proof.Gen.ReferenceIdeal.Run
import proofs.«154842_j4466765988650_2_alg».proof.Proof.Gen.ReferenceIdeal.Read
import proofs.«154842_j4466765988650_2_alg».proof.Proof.BitsRun
import proofs.«154842_j4466765988650_2_alg».proof.Proof.IdealRun
import proofs.«154842_j4466765988650_2_alg».proof.Proof.IdealResult
import proofs.«154842_j4466765988650_2_alg».proof.Proof.RefResult
import Idealize.ShloMosaic.Adequacy
import Idealize.ShloMosaic.Init

noncomputable section

namespace Cert.Proof

open Idealize.ShloMosaic Idealize.ShloMosaic.TcCoe Idealize.SL.Sem

/-- The printed kernel runs to the end, faults nowhere and leaves both arguments as launched. -/
theorem frame_k : Cert.frame_Kernel := fun m ρ _ =>
  (θ_run Cert.Kernel.defs _ _).mono (fun _ h c => (h c).2) (Cert.Kernel.Body.run (F := Bits) m ρ)

/-- So does its idealization. -/
theorem frame_ki : Cert.frame_KernelIdeal := fun m ρ _ =>
  (θ_run Cert.KernelIdeal.defs _ _).mono (fun _ h c => (h c).2) (Cert.KernelIdeal.Body.run (F := Ideal) m ρ)

/-- So does the reference: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with one and the same result: the kernel's at
    its function of the arguments, the reference's run term equal to that function. -/
theorem algebraic : Cert.algebraic_KernelIdeal_ReferenceIdeal := by
  intro m ρ m' ρ' _ hagree
  refine ⟨fun c => Cert.KernelIdeal.Res.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Res.kernel_result m ρ c), (h c).2⟩)
      (Cert.KernelIdeal.Body.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, (hagree c).1, (hagree c).2]
    exact Cert.RefResult.ref_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
